-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S4x8192x2 : Shape := ⟨3, ![4, 8192, 2]⟩
abbrev S2048x16 : Shape := ⟨2, ![2048, 16]⟩
abbrev S_ : Shape := ⟨0, ![]⟩

class Facts : Prop where
  bcast_S_S4x8192x2 : S_.BroadcastsInDim S4x8192x2 (![] : Fin 0 → Fin S4x8192x2.rank)
  reducesTo_S4x8192x2_S_d0_1_2 : S4x8192x2.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  reducesTo_S_S_d : S_.ReducesTo [] S_

variable [Facts]

def fn {F : FTy → Type} [FloatOps F] (main_arg0 : IVec S4x8192 32) (main_arg1 : FVec F S4x8192x2 .f32) (main_arg2 : FVec F S2048x16 .f32) (main_arg3 : FVec F S_ .f32) : IVec S_ 1 :=
  let main_v0 : FVec F S4x8192x2 .f32 := Host.absf main_arg1
  let main_cst : FVec F S_ .f32 := constant S_ .f32 0x7F800000#32
  let main_v1 : FVec F S4x8192x2 .f32 := broadcastInDim S4x8192x2 ![] bcast_S_S4x8192x2 main_cst
  let main_v2 : IVec S4x8192x2 1 := cmpf .olt main_v0 main_v1
  let main_c : IVec S_ 1 := constantI S_ 1 1#1
  let main_v3 : IVec S_ 1 := (fun x v => Host.reduce IntOp.andi x v reducesTo_S4x8192x2_S_d0_1_2 h_S_) main_v2 main_c
  let main_v4 : FVec F S2048x16 .f32 := Host.absf main_arg2
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4x8192 : Shape := ⟨2, ![4, 8192]⟩
abbrev S4x8192x2 : Shape := ⟨3, ![4, 8192, 2]⟩
abbrev S2048x16 : Shape := ⟨2, ![2048, 16]⟩
abbrev S_ : Shape := ⟨0, ![]⟩
abbrev S32768x2 : Shape := ⟨2, ![32768, 2]⟩
abbrev S2x32768 : Shape := ⟨2, ![2, 32768]⟩
abbrev S16x2048 : Shape := ⟨2, ![16, 2048]⟩
abbrev S32768x2048 : Shape := ⟨2, ![32768, 2048]⟩
abbrev S2x2048 : Shape := ⟨2, ![2, 2048]⟩
abbrev S2048x2048 : Shape := ⟨2, ![2048, 2048]⟩
abbrev S1x2048 : Shape := ⟨2, ![1, 2048]⟩
abbrev S4x8192x2048 : Shape := ⟨3, ![4, 8192, 2048]⟩

abbrev nBuf : Space → Nat
  | .hbm => 11
  | .vmem => 5
  | .smem => 0
  | _ => 0

abbrev bufTy : (tb : Table) → Fin (tcTables nBuf tb) → BufTy
  | .hbm, ⟨0, _⟩ => ⟨S4x8192, .i32⟩
  | .hbm, ⟨1, _⟩ => ⟨S4x8192x2, .f32⟩
  | .hbm, ⟨2, _⟩ => ⟨S2048x16, .f32⟩
  | .hbm, ⟨3, _⟩ => ⟨S_, .f32⟩
  | .hbm, ⟨4, _⟩ => ⟨S32768x2, .f32⟩
  | .hbm, ⟨5, _⟩ => ⟨S2x32768, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S32768x2048, .f32⟩
  | .hbm, ⟨10, _⟩ => ⟨S4x8192x2048, .f32⟩
  | .local _ .vmem, ⟨0, _⟩ => ⟨S2x2048, .f32⟩
  | .local _ .vmem, ⟨1, _⟩ => ⟨S2x2048, .f32⟩
  | .local _ .vmem, ⟨2, _⟩ => ⟨S16x2048, .f32⟩
  | .local _ .vmem, ⟨3, _⟩ => ⟨S2048x2048, .f32⟩
  | .local _ .vmem, ⟨4, _⟩ => ⟨S2048x2048, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x2_S32768x2 : S4x8192x2.ShapeCasts S32768x2
  transposes_S32768x2_S2x32768_1_0 : S32768x2.Transposes [1, 0] S2x32768
  transposes_S2048x16_S16x2048_1_0 : S2048x16.Transposes [1, 0] S16x2048
  bcast_S_S16x2048 : S_.BroadcastsInDim S16x2048 (![] : Fin 0 → Fin S16x2048.rank)
  inb_S2x2048_S1x2048_0_0 : ∀ a, (![0, 0] : Fin 2 → Nat) a + S1x2048.size a ≤ S2x2048.size a
  h_S1x2048 : 0 < S1x2048.numel
  shapeCasts_S1x2048_S1x2048 : S1x2048.ShapeCasts S1x2048
  inb_S2x2048_S1x2048_1_0 : ∀ a, (![1, 0] : Fin 2 → Nat) a + S1x2048.size a ≤ S2x2048.size a
  concatenates_S1x2048_S1x2048_S1x2048_S1x2048_S1x2048_S1x2048_S1x2048_S1x2048_S1x2048_S1x2048_S1x2048_S1x2048_S1x2048_S1x2048_S1x2048_S1x2048_S16x2048_d0 : Shape.Concatenates [S1x2048, S1x2048, S1x2048, S1x2048, S1x2048, S1x2048, S1x2048, S1x2048, S1x2048, S1x2048, S1x2048, S1x2048, S1x2048, S1x2048, S1x2048, S1x2048] S16x2048 0
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x2048_S2048x2048_0_0 : ∀ a, (![0, 0] : Fin 2 → Nat) a + S2048x2048.size a ≤ S2048x2048.size a
  h_S2048x2048 : 0 < S2048x2048.numel
  shapeCasts_S32768x2048_S4x8192x2048 : S32768x2048.ShapeCasts S4x8192x2048
  dot_S16x2048_S16x2048_S2048x2048_0_0_1_1_n_n_wf : DotDims.WF S16x2048 S16x2048 S2048x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048.size a ≤ S2x32768.size a
  hwx0_0 : ∀ i : grid0.Coords, EltTy.bits .f32 = 32 ∨ (Rect.block (s := S2x32768) S2x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S32768x2048.size a
  hwx0_2 : ∀ i : grid0.Coords, EltTy.bits .f32 = 32 ∨ (Rect.block (s := S32768x2048) S2048x2048.size (cc0_transform_2 i) (hinb0_2 i)).WholeWords (EltTy.packing .f32)

variable [Facts₀]

def dot_S16x2048_S16x2048_S2048x2048_0_0_1_1_n_n : DotDims S16x2048 S16x2048 S2048x2048 where
  lhsContracting := [0]
  rhsContracting := [0]
  lhsNonContracting := [1]
  rhsNonContracting := [1]
  lhsBatch := []
  rhsBatch := []
  wf := dot_S16x2048_S16x2048_S2048x2048_0_0_1_1_n_n_wf

abbrev win0_0 : Pipeline.Window sig grid0 :=
  Pipeline.Window.ofSpec (Memref.whole main_v1) S2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192 : Shape := ⟨2, ![4, 8192]⟩
abbrev S4x8192x2 : Shape := ⟨3, ![4, 8192, 2]⟩
abbrev S2048x16 : Shape := ⟨2, ![2048, 16]⟩
abbrev S_ : Shape := ⟨0, ![]⟩
abbrev S4x8192x1 : Shape := ⟨3, ![4, 8192, 1]⟩
abbrev S4x8192x16 : Shape := ⟨3, ![4, 8192, 16]⟩
abbrev S4x8192x2048 : Shape := ⟨3, ![4, 8192, 2048]⟩

abbrev nBuf : Space → Nat
  | .hbm => 104
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S4x8192x2, .f32⟩
  | .hbm, ⟨2, _⟩ => ⟨S2048x16, .f32⟩
  | .hbm, ⟨3, _⟩ => ⟨S_, .f32⟩
  | .hbm, ⟨4, _⟩ => ⟨S4x8192x1, .f32⟩
  | .hbm, ⟨5, _⟩ => ⟨S4x8192, .f32⟩
  | .hbm, ⟨6, _⟩ => ⟨S4x8192x1, .f32⟩
  | .hbm, ⟨7, _⟩ => ⟨S4x8192, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S4x8192, .f32⟩
  | .hbm, ⟨14, _⟩ => ⟨S4x8192, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192, .f32⟩
  | .hbm, ⟨20, _⟩ => ⟨S4x8192, .f32⟩
  | .hbm, ⟨21, _⟩ => ⟨S4x8192, .f32⟩
  | .hbm, ⟨22, _⟩ => ⟨S4x8192, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192, .f32⟩
  | .hbm, ⟨29, _⟩ => ⟨S4x8192, .f32⟩
  | .hbm, ⟨30, _⟩ => ⟨S4x8192, .f32⟩
  | .hbm, ⟨31, _⟩ => ⟨S4x8192, .f32⟩
  | .hbm, ⟨32, _⟩ => ⟨S4x8192, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192, .f32⟩
  | .hbm, ⟨48, _⟩ => ⟨S4x8192, .f32⟩
  | .hbm, ⟨49, _⟩ => ⟨S4x8192, .f32⟩
  | .hbm, ⟨50, _⟩ => ⟨S4x8192, .f32⟩
  | .hbm, ⟨51, _⟩ => ⟨S4x8192, .f32⟩
  | .hbm, ⟨52, _⟩ => ⟨S_, .f32⟩
  | .hbm, ⟨53, _⟩ => ⟨S4x8192, .f32⟩
  | .hbm, ⟨54, _⟩ => ⟨S4x8192, .f32⟩
  | .hbm, ⟨55, _⟩ => ⟨S4x8192, .f32⟩
  | .hbm, ⟨56, _⟩ => ⟨S4x8192, .f32⟩
  | .hbm, ⟨57, _⟩ => ⟨S4x8192, .f32⟩
  | .hbm, ⟨58, _⟩ => ⟨S4x8192, .f32⟩
  | .hbm, ⟨59, _⟩ => ⟨S4x8192, .f32⟩
  | .hbm, ⟨60, _⟩ => ⟨S4x8192, .f32⟩
  | .hbm, ⟨61, _⟩ => ⟨S_, .f32⟩
  | .hbm, ⟨62, _⟩ => ⟨S4x8192, .f32⟩
  | .hbm, ⟨63, _⟩ => ⟨S4x8192, .f32⟩
  | .hbm, ⟨64, _⟩ => ⟨S4x8192, .f32⟩
  | .hbm, ⟨65, _⟩ => ⟨S4x8192, .f32⟩
  | .hbm, ⟨66, _⟩ => ⟨S4x8192, .f32⟩
  | .hbm, ⟨67, _⟩ => ⟨S4x8192, .f32⟩
  | .hbm, ⟨68, _⟩ => ⟨S4x8192, .f32⟩
  | .hbm, ⟨69, _⟩ => ⟨S4x8192, .f32⟩
  | .hbm, ⟨70, _⟩ => ⟨S_, .f32⟩
  | .hbm, ⟨71, _⟩ => ⟨S4x8192, .f32⟩
  | .hbm, ⟨72, _⟩ => ⟨S4x8192, .f32⟩
  | .hbm, ⟨73, _⟩ => ⟨S4x8192, .f32⟩
  | .hbm, ⟨74, _⟩ => ⟨S4x8192, .f32⟩
  | .hbm, ⟨75, _⟩ => ⟨S4x8192, .f32⟩
  | .hbm, ⟨76, _⟩ => ⟨S4x8192, .f32⟩
  | .hbm, ⟨77, _⟩ => ⟨S4x8192, .f32⟩
  | .hbm, ⟨78, _⟩ => ⟨S4x8192, .f32⟩
  | .hbm, ⟨79, _⟩ => ⟨S_, .f32⟩
  | .hbm, ⟨80, _⟩ => ⟨S4x8192, .f32⟩
  | .hbm, ⟨81, _⟩ => ⟨S4x8192, .f32⟩
  | .hbm, ⟨82, _⟩ => ⟨S4x8192, .f32⟩
  | .hbm, ⟨83, _⟩ => ⟨S4x8192, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1, .f32⟩
  | .hbm, ⟨93, _⟩ => ⟨S4x8192x1, .f32⟩
  | .hbm, ⟨94, _⟩ => ⟨S4x8192x1, .f32⟩
  | .hbm, ⟨95, _⟩ => ⟨S4x8192x1, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1, .f32⟩
  | .hbm, ⟨100, _⟩ => ⟨S4x8192x16, .f32⟩
  | .hbm, ⟨101, _⟩ => ⟨S4x8192x2048, .f32⟩
  | .hbm, ⟨102, _⟩ => ⟨S4x8192x2048, .f32⟩
  | .hbm, ⟨103, _⟩ => ⟨S4x8192x2048, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩

abbrev nD : Nat := 1
abbrev τ : Topo := Topo.v7x

variable {F : FTy → Type} [FloatOps F]

class Facts₀ : Prop where
  slices_S4x8192x2_S4x8192x1_0_0_0 : S4x8192x2.Slices ![0, 0, 0] S4x8192x1
  shapeCasts_S4x8192x1_S4x8192 : S4x8192x1.ShapeCasts S4x8192
  slices_S4x8192x2_S4x8192x1_0_0_1 : S4x8192x2.Slices ![0, 0, 1] S4x8192x1
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  concatenates_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x16_d2 : Shape.Concatenates [S4x8192x1, S4x8192x1, S4x8192x1, S4x8192x1, S4x8192x1, S4x8192x1, S4x8192x1, S4x8192x1, S4x8192x1, S4x8192x1, S4x8192x1, S4x8192x1, S4x8192x1, S4x8192x1, S4x8192x1, S4x8192x1] S4x8192x16 2
  bcast_S_S4x8192x2048 : S_.BroadcastsInDim S4x8192x2048 (![] : Fin 0 → Fin S4x8192x2048.rank)
  dot_S4x8192x16_S2048x16_S4x8192x2048_2_1_01_0_n_n_wf : DotDims.WF S4x8192x16 S2048x16 S4x8192x2048 [2] [1] [0, 1] [0] [] []

variable [Facts₀]

def dot_S4x8192x16_S2048x16_S4x8192x2048_2_1_01_0_n_n : DotDims S4x8192x16 S2048x16 S4x8192x2048 where
  lhsContracting := [2]
  rhsContracting := [1]
  lhsNonContracting := [0, 1]
  rhsNonContracting := [0]
  lhsBatch := []
  rhsBatch := []
  wf := dot_S4x8192x16_S2048x16_S4x8192x2048_2_1_01_0_n_n_wf

class Facts : Prop extends Facts₀ where

variable [Facts]
-- ==== Proof.Finite.lean ====
/-
  The precondition read back: every float input is a real number.

  The precondition is the conjunction of three tests "all |x| < +∞", one per float argument, each a reduction by
  `and` of elementwise comparisons. If the conjunction is true then each comparison is true at each index, and an
  extended real whose absolute value max(x, −x) lies strictly below +∞ is neither +∞ nor −∞ (for −∞ the maximum is
  +∞ too): it is the image of a real number.
-/
import proofs.«148933_j30365418782764_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The word 0x7F800000 is +∞. -/
theorem ofBits_f32_inf : Ideal.ofBits .f32 0x7F800000#32 = (⊤ : EReal) := by
  simp [Ideal.ofBits, Ideal.ieee]

/-- An extended real with |x| < +∞ is a real number. -/
theorem real_of_abs_lt_inf (x : EReal)
    (h : Ideal.cmp .olt (max x (-x)) (Ideal.ofBits .f32 0x7F800000#32) = 1#1) : ∃ r : ℝ, x = (r : EReal) := by
  rw [ofBits_f32_inf] at h
  have hlt : max x (-x) < ⊤ := by
    by_contra hc
    unfold Ideal.cmp at h
    simp [hc] at h
  induction x using EReal.rec with
  | bot => simp at hlt
  | coe r => exact ⟨r, rfl⟩
  | top => simp at hlt

instance : Subsingleton S_.Idx := ⟨fun a b => funext fun d => d.elim0⟩

/-- Under the precondition every entry of the three float arguments is a real number. -/
theorem real_entries [Cert.Pre_finite_inputs.Facts] (a0 : IVec S4x8192 32) (a1 : FVec Ideal S4x8192x2 .f32)
    (a2 : FVec Ideal S2048x16 .f32) (a3 : FVec Ideal S_ .f32)
    (h : Cert.Pre_finite_inputs.fn (F := Ideal) a0 a1 a2 a3 = fun _ => 1#1) :
    (∀ j, ∃ r : ℝ, a1 j = (r : EReal)) ∧ (∀ j, ∃ r : ℝ, a2 j = (r : EReal)) ∧ ∃ r : ℝ, a3 ix0 = (r : EReal) := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun j => ?_, fun j => ?_, ?_⟩
  · exact real_of_abs_lt_inf _ (Host.reduce_andi_all _ _ _ _ ix0 h1 j)
  · exact real_of_abs_lt_inf _ (Host.reduce_andi_all _ _ _ _ ix0 h2 j)
  · exact real_of_abs_lt_inf _ (Host.reduce_andi_all _ _ _ _ ix0 h3 ix0)

end Cert.Finite

end
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.LibScaledDot.lean ====
/-
  A common factor taken out of an inner product, on the extended reals.

  On the extended reals multiplication does not distribute over addition at the infinities (⊤ + ⊥ is ⊥, and a
  negative factor turns the two around), so the identity below is stated for REAL entries — each entry the image
  of a real number —, where both sides are the image of one real sum.
-/
import proofs.«148933_j30365418782764_2_alg».proof.Proof.LibSumAssoc

namespace Cert.LibScaledDot

/-- For real entries `a`, `w` and a real factor `s`: scaling every weight by `s` scales the inner product,
    `∑ a_f · (w_f · s) = (∑ a_f · w_f) · s`. -/
theorem sum_mul_scaled {ι : Type*} [Fintype ι] (a w : ι → EReal) (s : EReal)
    (ha : ∀ f, ∃ r : ℝ, a f = r) (hw : ∀ f, ∃ r : ℝ, w f = r) (hs : ∃ r : ℝ, s = r) :
    ∑ f, a f * (w f * s) = (∑ f, a f * w f) * s := by
  choose a' ha using ha
  choose w' hw using hw
  obtain ⟨s', rfl⟩ := hs
  simp only [ha, hw, ← EReal.coe_mul, ← ERealSums.coe_sum]
  refine congrArg _ ?_
  rw [Finset.sum_mul]
  exact Finset.sum_congr rfl fun f _ => by ring

end Cert.LibScaledDot
-- ==== Proof.Julia.lean ====
/-
  What both programs compute: Julia features of a point, projected by a weight matrix and scaled.

  For a point c = cr + i·ci of the plane the iteration z ← z² + c is followed from z = 0 for eight steps, in real
  and imaginary parts,
      re' = re·re − im·im + cr,      im' = (2·re)·im + ci,
  with the products and sums grouped exactly as written (on the extended reals the grouping is part of the
  function). The sixteen FEATURES of c are re₁, im₁, re₂, im₂, …, re₈, im₈. For a batch of points cs[b, l, ·], a
  weight matrix W[d, f] and a scalar s the result is
      out[b, l, d] = (∑_f feature_f(cs[b, l]) · W[d, f]) · s.
  One program scales the weights first, ∑_f feature_f · (W[d, f] · s); when every entry is a real number the two
  agree, because a real factor comes out of a sum of real terms. A feature of a real point is a real number: the
  recurrence only multiplies, subtracts and adds.
-/
import Idealize.ShloMosaic.PureOps.Ideal
import Idealize.ShloMosaic.Lib.ValueIdx
import proofs.«148933_j30365418782764_2_alg».proof.Proof.LibWords
import proofs.«148933_j30365418782764_2_alg».proof.Proof.LibScaledDot

noncomputable section

namespace Cert.Julia

open Idealize.ShloMosaic Idealize.ShloMosaic.ValueIdx

/-- The constant 0 as both programs spell it. -/
abbrev zeroW : EReal := Ideal.ofBits .f32 0x00000000#32
/-- The constant 2 as both programs spell it. -/
abbrev twoW : EReal := Ideal.ofBits .f32 0x40000000#32

/-- The orbit of 0 under z ↦ z² + c after `n` steps, as (real part, imaginary part). -/
def orbit (cr ci : EReal) : ℕ → EReal × EReal
  | 0 => (zeroW, zeroW)
  | n + 1 => ((orbit cr ci n).1 * (orbit cr ci n).1 - (orbit cr ci n).2 * (orbit cr ci n).2 + cr,
              twoW * (orbit cr ci n).1 * (orbit cr ci n).2 + ci)

/-- The sixteen features of the point (cr, ci): the first eight points of the orbit, real part then imaginary part. -/
def feats (cr ci : EReal) : List EReal :=
  [(orbit cr ci 1).1, (orbit cr ci 1).2, (orbit cr ci 2).1, (orbit cr ci 2).2, (orbit cr ci 3).1, (orbit cr ci 3).2,
   (orbit cr ci 4).1, (orbit cr ci 4).2, (orbit cr ci 5).1, (orbit cr ci 5).2, (orbit cr ci 6).1, (orbit cr ci 6).2,
   (orbit cr ci 7).1, (orbit cr ci 7).2, (orbit cr ci 8).1, (orbit cr ci 8).2]

theorem feats_length (cr ci : EReal) : (feats cr ci).length = 16 := rfl

/-- Feature number `f`. -/
def feat (cr ci : EReal) (f : Fin 16) : EReal := ((feats cr ci)[f.val]?).getD 0

/-- A value found at position `f` of the list of features is feature `f`. -/
theorem eq_feat_of_getElem? {cr ci x : EReal} (f : Fin 16) (h : some x = (feats cr ci)[f.val]?) : x = feat cr ci f := by
  unfold feat
  rw [← h]
  rfl

/-! ## One step of the recurrence, on vectors of any shape, read at an index -/

section Pointwise

variable {s : Shape}

/-- The real part's step: where `zr`, `zi` hold step `n` of the orbit of the point that `c` holds the real part of,
    `(zr·zr − zi·zi) + c` holds the real part of step `n + 1`. -/
theorem re_step_apply (zr zi c : FVec Ideal s .f32) (i : s.Idx) (n : ℕ) (cr ci : EReal)
    (hr : zr i = (orbit cr ci n).1) (hi : zi i = (orbit cr ci n).2) (hc : c i = cr) :
    addf (subf (mulf zr zr) (mulf zi zi)) c i = (orbit cr ci (n + 1)).1 := by
  show zr i * zr i - zi i * zi i + c i = _
  rw [hr, hi, hc]
  rfl

/-- The imaginary part's step: `((2·zr)·zi) + c` holds the imaginary part of step `n + 1`. -/
theorem im_step_apply (two zr zi c : FVec Ideal s .f32) (i : s.Idx) (n : ℕ) (cr ci : EReal)
    (h2 : two i = twoW) (hr : zr i = (orbit cr ci n).1) (hi : zi i = (orbit cr ci n).2) (hc : c i = ci) :
    addf (mulf (mulf two zr) zi) c i = (orbit cr ci (n + 1)).2 := by
  show two i * zr i * zi i + c i = _
  rw [h2, hr, hi, hc]
  rfl

end Pointwise

/-! ## A feature of a real point is real -/

/-- Every point of the orbit of a real point has real coordinates. -/
theorem orbit_real (a b : ℝ) : ∀ n : ℕ, ∃ x y : ℝ, orbit (a : EReal) (b : EReal) n = ((x : EReal), (y : EReal))
  | 0 => ⟨0, 0, by
      show (zeroW, zeroW) = _
      rw [show zeroW = ((0 : ℝ) : EReal) from Cert.Proof.Words.ofBits_f32_zero]⟩
  | n + 1 => by
      obtain ⟨x, y, h⟩ := orbit_real a b n
      refine ⟨x * x - y * y + a, 2 * x * y + b, ?_⟩
      show ((orbit (a : EReal) (b : EReal) n).1 * (orbit (a : EReal) (b : EReal) n).1
          - (orbit (a : EReal) (b : EReal) n).2 * (orbit (a : EReal) (b : EReal) n).2 + (a : EReal),
        twoW * (orbit (a : EReal) (b : EReal) n).1 * (orbit (a : EReal) (b : EReal) n).2 + (b : EReal)) = _
      rw [h, show twoW = ((2 : ℝ) : EReal) from Cert.Proof.Words.ofBits_f32_two]
      simp only [EReal.coe_add, EReal.coe_sub, EReal.coe_mul]

theorem orbit_re_real (a b : ℝ) (n : ℕ) : ∃ r : ℝ, (orbit (a : EReal) (b : EReal) n).1 = (r : EReal) := by
  obtain ⟨x, y, h⟩ := orbit_real a b n
  exact ⟨x, by rw [h]⟩

theorem orbit_im_real (a b : ℝ) (n : ℕ) : ∃ r : ℝ, (orbit (a : EReal) (b : EReal) n).2 = (r : EReal) := by
  obtain ⟨x, y, h⟩ := orbit_real a b n
  exact ⟨y, by rw [h]⟩

/-- Every feature in the list is real. -/
theorem feats_real (a b : ℝ) : ∀ x ∈ feats (a : EReal) (b : EReal), ∃ r : ℝ, x = (r : EReal) := by
  unfold feats
  simp only [List.forall_mem_cons]
  exact ⟨orbit_re_real a b 1, orbit_im_real a b 1, orbit_re_real a b 2, orbit_im_real a b 2,
    orbit_re_real a b 3, orbit_im_real a b 3, orbit_re_real a b 4, orbit_im_real a b 4,
    orbit_re_real a b 5, orbit_im_real a b 5, orbit_re_real a b 6, orbit_im_real a b 6,
    orbit_re_real a b 7, orbit_im_real a b 7, orbit_re_real a b 8, orbit_im_real a b 8,
    fun x hx => absurd hx List.not_mem_nil⟩

/-- Feature `f` of a real point is real. -/
theorem feat_real (a b : ℝ) (f : Fin 16) : ∃ r : ℝ, feat (a : EReal) (b : EReal) f = (r : EReal) := by
  have hlt : f.val < (feats (a : EReal) (b : EReal)).length := by rw [feats_length]; exact f.isLt
  have e : feat (a : EReal) (b : EReal) f = (feats (a : EReal) (b : EReal))[f.val] := by
    unfold feat
    rw [List.getElem?_eq_getElem hlt]
    rfl
  rw [e]
  exact feats_real a b _ (List.getElem_mem hlt)

/-! ## The result -/

/-- The result at (b, l, d): the features of the point cs[b, l] against row d of the weights, then scaled. -/
def outAt (cs : (⟨3, ![4, 8192, 2]⟩ : Shape).Idx → EReal) (W : (⟨2, ![2048, 16]⟩ : Shape).Idx → EReal)
    (sc : (⟨0, ![]⟩ : Shape).Idx → EReal) (b : Fin 4) (l : Fin 8192) (d : Fin 2048) : EReal :=
  (∑ f : Fin 16, feat (cs (ix3 b l (0 : Fin 2))) (cs (ix3 b l (1 : Fin 2))) f * W (ix2 d f)) * sc ix0

/-- The result array, as one function of the three float arguments. -/
def out (cs : (⟨3, ![4, 8192, 2]⟩ : Shape).Idx → EReal) (W : (⟨2, ![2048, 16]⟩ : Shape).Idx → EReal)
    (sc : (⟨0, ![]⟩ : Shape).Idx → EReal) : (⟨3, ![4, 8192, 2048]⟩ : Shape).Idx → EReal :=
  fun i => outAt cs W sc (i 0) (i 1) (i 2)

/-- With the weights scaled first — every entry real — the result is the same. -/
theorem scaled_weights_eq_outAt (cs : (⟨3, ![4, 8192, 2]⟩ : Shape).Idx → EReal) (W : (⟨2, ![2048, 16]⟩ : Shape).Idx → EReal)
    (sc : (⟨0, ![]⟩ : Shape).Idx → EReal)
    (hcs : ∀ j, ∃ r : ℝ, cs j = (r : EReal)) (hW : ∀ j, ∃ r : ℝ, W j = (r : EReal)) (hsc : ∃ r : ℝ, sc ix0 = (r : EReal))
    (b : Fin 4) (l : Fin 8192) (d : Fin 2048) :
    ∑ f : Fin 16, feat (cs (ix3 b l (0 : Fin 2))) (cs (ix3 b l (1 : Fin 2))) f * (W (ix2 d f) * sc ix0) = outAt cs W sc b l d := by
  obtain ⟨x, hx⟩ := hcs (ix3 b l (0 : Fin 2))
  obtain ⟨y, hy⟩ := hcs (ix3 b l (1 : Fin 2))
  unfold outAt
  rw [hx, hy]
  exact Cert.LibScaledDot.sum_mul_scaled (fun f => feat (x : EReal) (y : EReal) f) (fun f => W (ix2 d f)) (sc ix0)
    (fun f => feat_real x y f) (fun f => hW (ix2 d f)) hsc

end Cert.Julia

end
-- ==== Proof.LibColumnDots.lean ====
/-
  Products of columns against columns, read at an index, on the extended reals.

  A contraction whose two operands are both contracted on their FIRST axis — [K,M] against [K,N], as a
  `tpu.matmul` into the zero accumulator — is, at the output index (p, f), the sum over d of entry (d, p) of
  the left operand times entry (d, f) of the right one: column p against column f. The statement holds for any
  dimension record equal to the literal one.
-/
import Idealize.ShloMosaic.PureOps.Ideal.Laws
import Idealize.ShloMosaic.Lib.ValueIdx

noncomputable section

namespace Cert.LibColumnDots

open Idealize.ShloMosaic Idealize.ShloMosaic.ValueIdx

variable {M K N : Nat}
variable (wf : DotDims.WF ⟨2, ![K, M]⟩ ⟨2, ![K, N]⟩ ⟨2, ![M, N]⟩ [0] [0] [1] [1] [] [])

/-- The literal record: both operands contracted on axis 0, no batch axis. -/
abbrev cols : DotDims ⟨2, ![K, M]⟩ ⟨2, ![K, N]⟩ ⟨2, ![M, N]⟩ := ⟨[0], [0], [1], [1], [], [], wf⟩

/-- The left operand's contracted coordinate is the contraction index. -/
theorem cols_lhs0 (i : (⟨2, ![M, N]⟩ : Shape).Idx) (q : (cols wf).contr.Idx) : ((cols wf).lhsIdx i q 0).val = (q ⟨0, Nat.one_pos⟩).val :=
  (cols wf).lhsIdx_val_of_single rfl i q

/-- The left operand's free coordinate is the output's row. -/
theorem cols_lhs1 (i : (⟨2, ![M, N]⟩ : Shape).Idx) (q : (cols wf).contr.Idx) : ((cols wf).lhsIdx i q 1).val = (i 0).val := by
  unfold DotDims.lhsIdx
  rw [dif_neg (show ¬(1 : Fin 2) ∈ (cols wf).lhsBatch from (by decide : ¬(1 : Fin 2) ∈ ([] : List (Fin 2)))), dif_pos (show (1 : Fin 2) ∈ (cols wf).lhsNonContracting from (by decide : (1 : Fin 2) ∈ ([1] : List (Fin 2))))]
  rfl

/-- The right operand's contracted coordinate is the contraction index. -/
theorem cols_rhs0 (i : (⟨2, ![M, N]⟩ : Shape).Idx) (q : (cols wf).contr.Idx) : ((cols wf).rhsIdx i q 0).val = (q ⟨0, Nat.one_pos⟩).val :=
  (cols wf).rhsIdx_val_of_single rfl i q

/-- The right operand's free coordinate is the output's column. -/
theorem cols_rhs1 (i : (⟨2, ![M, N]⟩ : Shape).Idx) (q : (cols wf).contr.Idx) : ((cols wf).rhsIdx i q 1).val = (i 1).val := by
  unfold DotDims.rhsIdx
  rw [dif_neg (show ¬(1 : Fin 2) ∈ (cols wf).rhsBatch from (by decide : ¬(1 : Fin 2) ∈ ([] : List (Fin 2)))), dif_pos (show (1 : Fin 2) ∈ (cols wf).rhsNonContracting from (by decide : (1 : Fin 2) ∈ ([1] : List (Fin 2))))]
  rfl

/-- The sum over the contraction index is the sum over d of column p of the left times column f of the right. -/
theorem cols_sum {φ₁ φ₂ : FTy} (a : FVec Ideal ⟨2, ![K, M]⟩ φ₁) (w : FVec Ideal ⟨2, ![K, N]⟩ φ₂) (p : Fin M) (f : Fin N) :
    ∑ k : (cols wf).contr.Idx, a ((cols wf).lhsIdx (ix2 p f) k) * w ((cols wf).rhsIdx (ix2 p f) k)
      = ∑ d : Fin K, a (ix2 d p) * w (ix2 d f) := by
  rw [← Equiv.sum_comp (contrEquiv1 (cols wf) K rfl rfl).symm]
  refine Finset.sum_congr rfl fun k _ => ?_
  have hk := contrEquiv1_symm_val (cols wf) K rfl rfl k
  have el : (cols wf).lhsIdx (ix2 p f) ((contrEquiv1 (cols wf) K rfl rfl).symm k) = ix2 k p := funext fun x => Fin.ext (by
    match x with
    | ⟨0, _⟩ => exact (cols_lhs0 wf _ _).trans hk
    | ⟨1, _⟩ => exact cols_lhs1 wf _ _)
  have er : (cols wf).rhsIdx (ix2 p f) ((contrEquiv1 (cols wf) K rfl rfl).symm k) = ix2 k f := funext fun x => Fin.ext (by
    match x with
    | ⟨0, _⟩ => exact (cols_rhs0 wf _ _).trans hk
    | ⟨1, _⟩ => exact cols_rhs1 wf _ _)
  rw [el, er]

/-- A `tpu.matmul` of columns against columns into the zero accumulator, at (p, f). -/
theorem matmul_cols {φ₁ φ₂ : FTy} (D : DotDims ⟨2, ![K, M]⟩ ⟨2, ![K, N]⟩ ⟨2, ![M, N]⟩) (hD : D = cols wf)
    (prec : Option ContractPrecision) (a : FVec Ideal ⟨2, ![K, M]⟩ φ₁) (w : FVec Ideal ⟨2, ![K, N]⟩ φ₂) (p : Fin M) (f : Fin N) :
    matmul D prec a w (constant (F := Ideal) ⟨2, ![M, N]⟩ .f32 0x00000000#32) (ix2 p f) = ∑ d : Fin K, a (ix2 d p) * w (ix2 d f) := by
  subst hD
  exact (Ideal.matmul_constant_zero_apply _ prec a w (ix2 p f)).trans (cols_sum wf a w p f)

end Cert.LibColumnDots

end
-- ==== Proof.LibUnitPieces.lean ====
/-
  A stack of unit-thick pieces, read at an index.

  Pieces that all have one shape, of extent one along an axis, joined along that axis: the coordinate of an index
  along the axis is the NUMBER of the piece it falls in, and inside that piece the index has the same coordinates
  off the axis (and the only possible coordinate, zero, on it). Any element type, any number of pieces, any rank.
-/
import Idealize.ShloMosaic.Lib.Pipeline.Value

namespace Cert.LibUnitPieces

open Idealize.ShloMosaic

variable {α : Type} {s₁ : Shape}

/-- The first `k` pieces, each of extent one along the axis, span `k` coordinates of it. -/
theorem span_of_unit_pieces (g : Shape → Nat) (hg : g s₁ = 1) : ∀ (ps : List (s₁.Idx → α)) (k : Nat), k ≤ ps.length →
    ((((ps.map fun p => (⟨s₁, p⟩ : (s : Shape) × (s.Idx → α))).take k).map (·.1)).map g).sum = k
  | _, 0, _ => by simp
  | [], k + 1, h => absurd h (by simp)
  | p :: ps, k + 1, h => by
    have ih := span_of_unit_pieces g hg ps k (by simpa using h)
    simp only [List.map_cons, List.take_succ_cons, List.sum_cons]
    show g s₁ + _ = _
    rw [ih, hg]; omega

/-- Pieces of one shape `s₁`, of extent one along axis `a`, joined along `a`: at an index `j` whose coordinate
    along `a` is `k`, the join reads piece number `k` at the index `i` that agrees with `j` off the axis. -/
theorem concatenate_unit_pieces_apply {t : Shape} (a : Fin t.rank) (ps : List (s₁.Idx → α))
    (h : Shape.Concatenates ((ps.map fun p => (⟨s₁, p⟩ : (s : Shape) × (s.Idx → α))).map (·.1)) t a)
    (hr : s₁.rank = t.rank) (h1 : s₁.size (a.cast hr.symm) = 1)
    (j : t.Idx) (k : Nat) (hk : k < ps.length) (hjk : (j a).val = k)
    (i : s₁.Idx) (hi : ∀ b : Fin s₁.rank, b.cast hr ≠ a → (i b).val = (j (b.cast hr)).val) :
    concatenate t a (ps.map fun p => ⟨s₁, p⟩) h j = ps[k] i := by
  have hk' : k < (ps.map fun p => (⟨s₁, p⟩ : (s : Shape) × (s.Idx → α))).length := by
    rw [List.length_map]; exact hk
  refine concatenate_apply_piece a _ h j k hk' s₁ ps[k] (by rw [List.getElem_map]) hr k ?_ i hi ?_
  · refine span_of_unit_pieces _ ?_ ps k (Nat.le_of_lt hk)
    show (if h : s₁.rank = t.rank then s₁.size (a.cast h.symm) else 0) = 1
    rw [dif_pos hr]; exact h1
  · have hlt : (i (a.cast hr.symm)).val < 1 := Nat.lt_of_lt_of_eq (i (a.cast hr.symm)).isLt h1
    omega

/-- The same with the pieces read at `i` first: the join at `j` is entry `k` of the list of the pieces' values at `i`. -/
theorem concatenate_unit_pieces_getElem? {t : Shape} (a : Fin t.rank) (ps : List (s₁.Idx → α))
    (h : Shape.Concatenates ((ps.map fun p => (⟨s₁, p⟩ : (s : Shape) × (s.Idx → α))).map (·.1)) t a)
    (hr : s₁.rank = t.rank) (h1 : s₁.size (a.cast hr.symm) = 1)
    (j : t.Idx) (k : Nat) (hk : k < ps.length) (hjk : (j a).val = k)
    (i : s₁.Idx) (hi : ∀ b : Fin s₁.rank, b.cast hr ≠ a → (i b).val = (j (b.cast hr)).val) :
    some (concatenate t a (ps.map fun p => ⟨s₁, p⟩) h j) = (ps.map fun p => p i)[k]? := by
  rw [concatenate_unit_pieces_apply a ps h hr h1 j k hk hjk i hi, List.getElem?_map, List.getElem?_eq_getElem hk]
  rfl

end Cert.LibUnitPieces
-- ==== Proof.KernelBlock.lean ====
/-
  One grid point of the kernel: what the body stores, read at an index.

  At a grid point the body holds a [2, T] block of points (row 0 the real parts, row 1 the imaginary parts, T = 2048
  points side by side) and the whole [16, D] table of scaled weights. It runs the recurrence on whole rows — every
  operation elementwise on [1, T] rows —, stacks the sixteen resulting rows into a [16, T] array and contracts that
  array with the weights over the axis of length sixteen. So entry (p, d) of the stored [T, D] block is the sum over
  f of feature f of point p times entry (f, d) of the table. Elementwise means that row f of the stack, read at
  point p, is the scalar recurrence applied to the two numbers of point p: eight steps, each read off the one before.
-/
import proofs.«148933_j30365418782764_2_alg».proof.Proof.Gen.KernelIdeal.Frame
import Idealize.ShloMosaic.Lib.Pipeline.Value
import proofs.«148933_j30365418782764_2_alg».proof.Proof.Julia
import proofs.«148933_j30365418782764_2_alg».proof.Proof.LibColumnDots
import proofs.«148933_j30365418782764_2_alg».proof.Proof.LibUnitPieces

noncomputable section

namespace Cert.KernelIdeal.Block

open Cert.KernelIdeal Cert.KernelIdeal.Gen Idealize.ShloMosaic Idealize.ShloMosaic.ValueIdx Cert.Julia

variable (v0 v2 : Vec Ideal S1x2048 .f32)

/-- The row of twos the imaginary part's step multiplies by. -/
abbrev twos : FVec Ideal S1x2048 .f32 := broadcast S1x2048 (Scalar.ofBits (F := Ideal) .f32 0x40000000#32)

/-! The last three steps of the recurrence are not named in the body's payloads; here they are, as the body computes
    them from the fifth step's rows (the sixth real part from the two squares already taken). -/

abbrev re6 : FVec Ideal S1x2048 .f32 := addf (subf (k0_pay16 v0 v2) (k0_pay17 v0 v2)) (k0_pay2 v0)
abbrev im6 : FVec Ideal S1x2048 .f32 := addf (mulf (mulf twos (k0_pay14 v0 v2)) (k0_pay15 v0 v2)) (k0_pay3 v2)
abbrev re7 : FVec Ideal S1x2048 .f32 := addf (subf (mulf (re6 v0 v2) (re6 v0 v2)) (mulf (im6 v0 v2) (im6 v0 v2))) (k0_pay2 v0)
abbrev im7 : FVec Ideal S1x2048 .f32 := addf (mulf (mulf twos (re6 v0 v2)) (im6 v0 v2)) (k0_pay3 v2)
abbrev re8 : FVec Ideal S1x2048 .f32 := addf (subf (mulf (re7 v0 v2) (re7 v0 v2)) (mulf (im7 v0 v2) (im7 v0 v2))) (k0_pay2 v0)
abbrev im8 : FVec Ideal S1x2048 .f32 := addf (mulf (mulf twos (re7 v0 v2)) (im7 v0 v2)) (k0_pay3 v2)

/-- A [1, T] row as a piece of a concatenation. -/
abbrev asPiece (p : S1x2048.Idx → EReal) : (s : Shape) × (s.Idx → EReal) := ⟨S1x2048, p⟩

/-- The sixteen rows the body stacks, in order. -/
abbrev rows : List (S1x2048.Idx → EReal) :=
  [k0_pay6 v0, k0_pay7 v2, k0_pay8 v0 v2, k0_pay9 v0 v2, k0_pay10 v0 v2, k0_pay11 v0 v2, k0_pay12 v0 v2, k0_pay13 v0 v2,
   k0_pay14 v0 v2, k0_pay15 v0 v2, re6 v0 v2, im6 v0 v2, re7 v0 v2, im7 v0 v2, re8 v0 v2, im8 v0 v2]

/-- The rows as the pieces of the concatenation. -/
abbrev rowPieces : List ((s : Shape) × (s.Idx → EReal)) := (rows v0 v2).map asPiece

/-- The stack of the sixteen rows. -/
abbrev stack : FVec Ideal S16x2048 .f32 :=
  concatenate S16x2048 0 (rowPieces v0 v2) Facts₀.concatenates_S1x2048_S1x2048_S1x2048_S1x2048_S1x2048_S1x2048_S1x2048_S1x2048_S1x2048_S1x2048_S1x2048_S1x2048_S1x2048_S1x2048_S1x2048_S1x2048_S16x2048_d0

/-- The stored value is the contraction of the stack of those rows with the table, into zero. -/
theorem stored_eq (v71 : Vec Ideal S16x2048 .f32) :
    k0_pay1 (k0_pay2 v0) (k0_pay3 v2) (k0_pay6 v0) (k0_pay7 v2) (k0_pay8 v0 v2) (k0_pay9 v0 v2) (k0_pay10 v0 v2) (k0_pay11 v0 v2) (k0_pay12 v0 v2) (k0_pay13 v0 v2) (k0_pay14 v0 v2) (k0_pay15 v0 v2) (k0_pay16 v0 v2) (k0_pay17 v0 v2) v71
      = matmul (F := Ideal) (φ₁ := .f32) (φ₂ := .f32) dot_S16x2048_S16x2048_S2048x2048_0_0_1_1_n_n (some .fp32)
          (stack v0 v2)
          (shapeCast S16x2048 v71 Facts₀.shapeCasts_S16x2048_S16x2048) (constant (F := Ideal) S2048x2048 .f32 0x00000000#32) := rfl

/-- The row casts that change nothing. -/
theorem re_point : k0_pay2 v0 = v0 := shapeCast_self v0 _
theorem im_point : k0_pay3 v2 = v2 := shapeCast_self v2 _

/-- THE ROWS AT A POINT: read at point `q`, the sixteen rows are the sixteen features of the point whose real part
    row `v0` and imaginary part row `v2` hold at `q` — step by step, each step from the one before. -/
theorem rows_at (q : Fin 2048) :
    (rows v0 v2).map (fun p => p (ix2 (0 : Fin 1) q)) = feats (v0 (ix2 (0 : Fin 1) q)) (v2 (ix2 (0 : Fin 1) q)) := by
  have c1 : k0_pay2 v0 (ix2 (0 : Fin 1) q) = v0 (ix2 (0 : Fin 1) q) := congrFun (re_point v0) _
  have c3 : k0_pay3 v2 (ix2 (0 : Fin 1) q) = v2 (ix2 (0 : Fin 1) q) := congrFun (im_point v2) _
  have z4 : k0_pay4 (F := Ideal) (ix2 (0 : Fin 1) q) = (orbit (v0 (ix2 (0 : Fin 1) q)) (v2 (ix2 (0 : Fin 1) q)) 0).1 := rfl
  have z5 : k0_pay5 (F := Ideal) (ix2 (0 : Fin 1) q) = (orbit (v0 (ix2 (0 : Fin 1) q)) (v2 (ix2 (0 : Fin 1) q)) 0).2 := rfl
  have r1 : k0_pay6 v0 (ix2 (0 : Fin 1) q) = _ := re_step_apply k0_pay4 k0_pay5 (k0_pay2 v0) _ 0 _ _ z4 z5 c1
  have i1 : k0_pay7 v2 (ix2 (0 : Fin 1) q) = _ := im_step_apply twos k0_pay4 k0_pay5 (k0_pay3 v2) _ 0 _ _ rfl z4 z5 c3
  have r2 : k0_pay8 v0 v2 (ix2 (0 : Fin 1) q) = _ := re_step_apply (k0_pay6 v0) (k0_pay7 v2) (k0_pay2 v0) _ 1 _ _ r1 i1 c1
  have i2 : k0_pay9 v0 v2 (ix2 (0 : Fin 1) q) = _ := im_step_apply twos (k0_pay6 v0) (k0_pay7 v2) (k0_pay3 v2) _ 1 _ _ rfl r1 i1 c3
  have r3 : k0_pay10 v0 v2 (ix2 (0 : Fin 1) q) = _ := re_step_apply (k0_pay8 v0 v2) (k0_pay9 v0 v2) (k0_pay2 v0) _ 2 _ _ r2 i2 c1
  have i3 : k0_pay11 v0 v2 (ix2 (0 : Fin 1) q) = _ := im_step_apply twos (k0_pay8 v0 v2) (k0_pay9 v0 v2) (k0_pay3 v2) _ 2 _ _ rfl r2 i2 c3
  have r4 : k0_pay12 v0 v2 (ix2 (0 : Fin 1) q) = _ := re_step_apply (k0_pay10 v0 v2) (k0_pay11 v0 v2) (k0_pay2 v0) _ 3 _ _ r3 i3 c1
  have i4 : k0_pay13 v0 v2 (ix2 (0 : Fin 1) q) = _ := im_step_apply twos (k0_pay10 v0 v2) (k0_pay11 v0 v2) (k0_pay3 v2) _ 3 _ _ rfl r3 i3 c3
  have r5 : k0_pay14 v0 v2 (ix2 (0 : Fin 1) q) = _ := re_step_apply (k0_pay12 v0 v2) (k0_pay13 v0 v2) (k0_pay2 v0) _ 4 _ _ r4 i4 c1
  have i5 : k0_pay15 v0 v2 (ix2 (0 : Fin 1) q) = _ := im_step_apply twos (k0_pay12 v0 v2) (k0_pay13 v0 v2) (k0_pay3 v2) _ 4 _ _ rfl r4 i4 c3
  have r6 : re6 v0 v2 (ix2 (0 : Fin 1) q) = _ := re_step_apply (k0_pay14 v0 v2) (k0_pay15 v0 v2) (k0_pay2 v0) _ 5 _ _ r5 i5 c1
  have i6 : im6 v0 v2 (ix2 (0 : Fin 1) q) = _ := im_step_apply twos (k0_pay14 v0 v2) (k0_pay15 v0 v2) (k0_pay3 v2) _ 5 _ _ rfl r5 i5 c3
  have r7 : re7 v0 v2 (ix2 (0 : Fin 1) q) = _ := re_step_apply (re6 v0 v2) (im6 v0 v2) (k0_pay2 v0) _ 6 _ _ r6 i6 c1
  have i7 : im7 v0 v2 (ix2 (0 : Fin 1) q) = _ := im_step_apply twos (re6 v0 v2) (im6 v0 v2) (k0_pay3 v2) _ 6 _ _ rfl r6 i6 c3
  have r8 : re8 v0 v2 (ix2 (0 : Fin 1) q) = _ := re_step_apply (re7 v0 v2) (im7 v0 v2) (k0_pay2 v0) _ 7 _ _ r7 i7 c1
  have i8 : im8 v0 v2 (ix2 (0 : Fin 1) q) = _ := im_step_apply twos (re7 v0 v2) (im7 v0 v2) (k0_pay3 v2) _ 7 _ _ rfl r7 i7 c3
  show [k0_pay6 v0 (ix2 (0 : Fin 1) q), k0_pay7 v2 (ix2 (0 : Fin 1) q), k0_pay8 v0 v2 (ix2 (0 : Fin 1) q), k0_pay9 v0 v2 (ix2 (0 : Fin 1) q),
    k0_pay10 v0 v2 (ix2 (0 : Fin 1) q), k0_pay11 v0 v2 (ix2 (0 : Fin 1) q), k0_pay12 v0 v2 (ix2 (0 : Fin 1) q), k0_pay13 v0 v2 (ix2 (0 : Fin 1) q),
    k0_pay14 v0 v2 (ix2 (0 : Fin 1) q), k0_pay15 v0 v2 (ix2 (0 : Fin 1) q), re6 v0 v2 (ix2 (0 : Fin 1) q), im6 v0 v2 (ix2 (0 : Fin 1) q),
    re7 v0 v2 (ix2 (0 : Fin 1) q), im7 v0 v2 (ix2 (0 : Fin 1) q), re8 v0 v2 (ix2 (0 : Fin 1) q), im8 v0 v2 (ix2 (0 : Fin 1) q)] = _
  rw [r1, i1, r2, i2, r3, i3, r4, i4, r5, i5, r6, i6, r7, i7, r8, i8]
  rfl

/-- THE STACK AT (f, q): row `f` of the stack at point `q` is feature `f` of that point. -/
theorem stack_apply (f : Fin 16) (q : Fin 2048) :
    stack v0 v2 (ix2 f q)
      = feat (v0 (ix2 (0 : Fin 1) q)) (v2 (ix2 (0 : Fin 1) q)) f := by
  refine eq_feat_of_getElem? f ?_
  refine (Cert.LibUnitPieces.concatenate_unit_pieces_getElem? (α := EReal) (s₁ := S1x2048) (t := S16x2048) (0 : Fin 2) (rows v0 v2) Facts₀.concatenates_S1x2048_S1x2048_S1x2048_S1x2048_S1x2048_S1x2048_S1x2048_S1x2048_S1x2048_S1x2048_S1x2048_S1x2048_S1x2048_S1x2048_S1x2048_S1x2048_S16x2048_d0 rfl rfl
    (ix2 f q) f.val f.isLt rfl (ix2 (0 : Fin 1) q) (fun b hb => ?_)).trans ?_
  · match b, hb with
    | ⟨0, _⟩, hb => exact absurd rfl hb
    | ⟨1, _⟩, _ => rfl
  · rw [rows_at v0 v2 q]

/-! ## The stored block at an index -/

theorem zero_offsets : (![0, 0] : Fin 2 → Nat) = fun _ => 0 := funext fun a => by fin_cases a <;> rfl

/-- Row 0 of the block of points, loaded as a row, read at `q`. -/
theorem load_re (x0 : Vec Ideal S2x2048 .f32) (q : Fin 2048) : View.ld x0 r0_0 (ix2 (0 : Fin 1) q) = x0 (ix2 (0 : Fin 2) q) :=
  congrArg x0 (funext fun a => Fin.ext (by
    match a with
    | ⟨0, _⟩ => rfl
    | ⟨1, _⟩ => show 0 + 1 * q.val = q.val; omega))

/-- Row 1 of the block of points, loaded as a row, read at `q`. -/
theorem load_im (x0 : Vec Ideal S2x2048 .f32) (q : Fin 2048) : View.ld x0 r0_1 (ix2 (0 : Fin 1) q) = x0 (ix2 (1 : Fin 2) q) :=
  congrArg x0 (funext fun a => Fin.ext (by
    match a with
    | ⟨0, _⟩ => rfl
    | ⟨1, _⟩ => show 0 + 1 * q.val = q.val; omega))

/-- THE STORED BLOCK AT (p, d): the features of point `p` of the block against column `d` of the table. -/
theorem stored_apply (x0 : Vec Ideal S2x2048 .f32) (x1 : Vec Ideal S16x2048 .f32) (p d : Fin 2048) :
    k0_pay1 (k0_pay2 (View.ld x0 r0_0)) (k0_pay3 (View.ld x0 r0_1)) (k0_pay6 (View.ld x0 r0_0)) (k0_pay7 (View.ld x0 r0_1)) (k0_pay8 (View.ld x0 r0_0) (View.ld x0 r0_1)) (k0_pay9 (View.ld x0 r0_0) (View.ld x0 r0_1)) (k0_pay10 (View.ld x0 r0_0) (View.ld x0 r0_1)) (k0_pay11 (View.ld x0 r0_0) (View.ld x0 r0_1)) (k0_pay12 (View.ld x0 r0_0) (View.ld x0 r0_1)) (k0_pay13 (View.ld x0 r0_0) (View.ld x0 r0_1)) (k0_pay14 (View.ld x0 r0_0) (View.ld x0 r0_1)) (k0_pay15 (View.ld x0 r0_0) (View.ld x0 r0_1)) (k0_pay16 (View.ld x0 r0_0) (View.ld x0 r0_1)) (k0_pay17 (View.ld x0 r0_0) (View.ld x0 r0_1)) (View.ld x1 r0_2) (ix2 p d)
      = ∑ f : Fin 16, feat (x0 (ix2 (0 : Fin 2) p)) (x0 (ix2 (1 : Fin 2) p)) f * x1 (ix2 f d) := by
  refine (congrFun (stored_eq (View.ld x0 r0_0) (View.ld x0 r0_1) (View.ld x1 r0_2)) (ix2 p d)).trans ?_
  refine (Cert.LibColumnDots.matmul_cols Facts₀.dot_S16x2048_S16x2048_S2048x2048_0_0_1_1_n_n_wf dot_S16x2048_S16x2048_S2048x2048_0_0_1_1_n_n rfl (some .fp32) _ _ p d).trans ?_
  refine Finset.sum_congr rfl fun f _ => ?_
  rw [stack_apply, load_re, load_im, shapeCast_self, View.ld_unit_zero zero_offsets]

/-- The same at an index of the block given whole. -/
theorem stored_apply_idx (x0 : Vec Ideal S2x2048 .f32) (x1 : Vec Ideal S16x2048 .f32) (j : S2048x2048.Idx) :
    k0_pay1 (k0_pay2 (View.ld x0 r0_0)) (k0_pay3 (View.ld x0 r0_1)) (k0_pay6 (View.ld x0 r0_0)) (k0_pay7 (View.ld x0 r0_1)) (k0_pay8 (View.ld x0 r0_0) (View.ld x0 r0_1)) (k0_pay9 (View.ld x0 r0_0) (View.ld x0 r0_1)) (k0_pay10 (View.ld x0 r0_0) (View.ld x0 r0_1)) (k0_pay11 (View.ld x0 r0_0) (View.ld x0 r0_1)) (k0_pay12 (View.ld x0 r0_0) (View.ld x0 r0_1)) (k0_pay13 (View.ld x0 r0_0) (View.ld x0 r0_1)) (k0_pay14 (View.ld x0 r0_0) (View.ld x0 r0_1)) (k0_pay15 (View.ld x0 r0_0) (View.ld x0 r0_1)) (k0_pay16 (View.ld x0 r0_0) (View.ld x0 r0_1)) (k0_pay17 (View.ld x0 r0_0) (View.ld x0 r0_1)) (View.ld x1 r0_2) j
      = ∑ f : Fin 16, feat (x0 (ix2 (0 : Fin 2) (j 0))) (x0 (ix2 (1 : Fin 2) (j 0))) f * x1 (ix2 f (j 1)) := by
  exact (congrArg (k0_pay1 (k0_pay2 (View.ld x0 r0_0)) (k0_pay3 (View.ld x0 r0_1)) (k0_pay6 (View.ld x0 r0_0)) (k0_pay7 (View.ld x0 r0_1)) (k0_pay8 (View.ld x0 r0_0) (View.ld x0 r0_1)) (k0_pay9 (View.ld x0 r0_0) (View.ld x0 r0_1)) (k0_pay10 (View.ld x0 r0_0) (View.ld x0 r0_1)) (k0_pay11 (View.ld x0 r0_0) (View.ld x0 r0_1)) (k0_pay12 (View.ld x0 r0_0) (View.ld x0 r0_1)) (k0_pay13 (View.ld x0 r0_0) (View.ld x0 r0_1)) (k0_pay14 (View.ld x0 r0_0) (View.ld x0 r0_1)) (k0_pay15 (View.ld x0 r0_0) (View.ld x0 r0_1)) (k0_pay16 (View.ld x0 r0_0) (View.ld x0 r0_1)) (k0_pay17 (View.ld x0 r0_0) (View.ld x0 r0_1)) (View.ld x1 r0_2)) (eq_ix2 j)).trans
    (stored_apply x0 x1 (j 0) (j 1))

end Cert.KernelIdeal.Block

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibInDimRows.lean ====
/-
  The host's broadcast_in_dim of a per-row quantity over a rank-3 array, read at an index (any element type):
  a vector [a] placed on axis 0 of a column [a,1,1]; a column [a,1,1] spread over [a,b,c]; and a scalar spread
  over any shape. Entry (g, ·, ·) of each reads entry g (resp. the one entry) of the operand.
-/
import Idealize.ShloMosaic.Lib.Pipeline.Value
import Idealize.ShloMosaic.Lib.ValueIdx

namespace Cert.LibInDimRows

open Idealize.ShloMosaic Idealize.ShloMosaic.ValueIdx

variable {α : Type}

/-- A vector [a] as a column [a,1,1]: entry (g, u, v) is entry g. -/
theorem vec_col_apply {a : ℕ} (h : (⟨1, ![a]⟩ : Shape).BroadcastsInDim ⟨3, ![a, 1, 1]⟩ (![0] : Fin 1 → Fin 3))
    (x : (⟨1, ![a]⟩ : Shape).Idx → α) (g : Fin a) (u v : Fin 1) :
    broadcastInDim ⟨3, ![a, 1, 1]⟩ ![0] h x (ix3 g u v) = x (ix1 g) :=
  broadcastInDim_apply _ h x _ _ (fun d => by
    match d with
    | ⟨0, _⟩ =>
      show g.val = if a = 1 then 0 else g.val
      split_ifs with h1
      · have := g.isLt; omega
      · rfl)

/-- A column [a,1,1] spread over [a,b,c]: entry (g, k, d) is entry (g, 0, 0). -/
theorem col_spread_apply {a b c : ℕ} (h : (⟨3, ![a, 1, 1]⟩ : Shape).BroadcastsInDim ⟨3, ![a, b, c]⟩ (![0, 1, 2] : Fin 3 → Fin 3))
    (x : (⟨3, ![a, 1, 1]⟩ : Shape).Idx → α) (g : Fin a) (k : Fin b) (d : Fin c) :
    broadcastInDim ⟨3, ![a, b, c]⟩ ![0, 1, 2] h x (ix3 g k d) = x (ix3 g (0 : Fin 1) (0 : Fin 1)) :=
  broadcastInDim_apply _ h x _ _ (fun e => by
    match e with
    | ⟨0, _⟩ =>
      show g.val = if a = 1 then 0 else g.val
      split_ifs with h1
      · have := g.isLt; omega
      · rfl
    | ⟨1, _⟩ => show 0 = if (1 : ℕ) = 1 then 0 else k.val; rw [if_pos rfl]
    | ⟨2, _⟩ => show 0 = if (1 : ℕ) = 1 then 0 else d.val; rw [if_pos rfl])

/-- A scalar spread over any shape: every entry is the scalar. -/
theorem scalar_spread_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x _ _ (fun e => e.elim0)

end Cert.LibInDimRows
-- ==== Proof.KernelArray.lean ====
/-
  The kernel's whole run: from blocks to the result array.

  The grid has sixteen points. Point t is given points 2048·t … 2048·t + 2047 of the batch (block t of the [2, 32768]
  array of points, along its second axis) and the whole table, and writes rows 2048·t … 2048·t + 2047 of the
  [32768, 2048] output. Every output row lies in exactly one such block, so after the run entry (r, d) of the output
  is the features of point r against column d of the table.
  Before the region the host lays the points out as [2, 32768] — point number 8192·b + l is the pair cs[b, l, ·],
  its real part in row 0 and its imaginary part in row 1 — and builds the table as the transposed weights times the
  scalar, entry (f, d) = W[d, f] · s. After the region it only regroups the rows, row 8192·b + l becoming (b, l).
  So the result at (b, l, d) is ∑_f feature_f(cs[b, l]) · (W[d, f] · s), and with real entries that is the stated
  result with the scalar outside the sum.
-/
import proofs.«148933_j30365418782764_2_alg».proof.Proof.Gen.KernelIdeal.Frame
import Idealize.ShloMosaic.Lib.Pipeline.Value
import Idealize.ShloMosaic.Lib.StableHlo.Run
import proofs.«148933_j30365418782764_2_alg».proof.Proof.KernelBlock
import proofs.«148933_j30365418782764_2_alg».proof.Proof.LibRowPairs
import proofs.«148933_j30365418782764_2_alg».proof.Proof.LibInDimRows

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Julia
open Idealize.ShloMosaic.Pipeline (Dat)

variable (m : (ℓ : Loc nD τ sig) → Buf (Elt Ideal) ℓ) (ρ : Dev nD → PrngReg)

/-! ## The region's output as one function of the two arrays it stages -/

/-- Entry (r, d): the features of point r against column d of the table. -/
def regionOutAt (pts : S2x32768.Idx → EReal) (tbl : S16x2048.Idx → EReal) (r : Fin 32768) (d : Fin 2048) : EReal :=
  ∑ f : Fin 16, feat (pts (ix2 (0 : Fin 2) r)) (pts (ix2 (1 : Fin 2) r)) f * tbl (ix2 f d)

def regionOut (pts : S2x32768.Idx → EReal) (tbl : S16x2048.Idx → EReal) : S32768x2048.Idx → EReal :=
  fun i => regionOutAt pts tbl (i 0) (i 1)

/-- The printed index maps, decided over the sixteen points: the points' block moves with the output's block along
    the long axis, the table's block never moves. -/
theorem idx_facts : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every block of output rows is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- One block at one index, over variables: if the block of points and the block of the table hold, at the places
    the body reads, what the two arrays hold at the places the output index names, the stored value is the region's
    function there. -/
theorem stored_eq_regionOut (x0 : Vec Ideal S2x2048 .f32) (x1 : Vec Ideal S16x2048 .f32)
    (pts : S2x32768.Idx → EReal) (tbl : S16x2048.Idx → EReal) (p d : Fin 2048) (r : Fin 32768) (d' : Fin 2048)
    (h0 : x0 (ix2 (0 : Fin 2) p) = pts (ix2 (0 : Fin 2) r))
    (h1 : x0 (ix2 (1 : Fin 2) p) = pts (ix2 (1 : Fin 2) r))
    (h2 : ∀ f : Fin 16, x1 (ix2 f d) = tbl (ix2 f d')) :
    ∑ f : Fin 16, feat (x0 (ix2 (0 : Fin 2) p)) (x0 (ix2 (1 : Fin 2) p)) f * x1 (ix2 f d) = regionOutAt pts tbl r d' := by
  unfold regionOutAt
  rw [h0, h1]
  exact Finset.sum_congr rfl fun f _ => by rw [h2 f]

/-- WHAT POINT t WRITES BACK is block t of the region's function of the two staged arrays. -/
theorem flushed_eq (c : Dev nD) (t : Fin cfg0.N) :
    (dats m 0 c).flushed 2 t = ((cfg0.win 2).blk t).view.read (Elt Ideal) (regionOut (V m c main_v1) (V m c main_v4)) := by
  show (cfg0.win 2).cut (grid0.coords t) ((dats m 0 c).after 2 t) = _
  rw [after0_2]
  unfold out0_2
  rw [View.canon_unit_zero Block.zero_offsets]
  obtain ⟨e0, e1, e2, e3, e4, e5⟩ := idx_facts t
  funext j
  show _ = regionOutAt (V m c main_v1) (V m c main_v4) ((((cfg0.win 2).blk t).view.emb j) 0) ((((cfg0.win 2).blk t).view.emb j) 1)
  have h0 : iblk m c 0 t (ix2 (0 : Fin 2) (j 0)) = V m c main_v1 (ix2 (0 : Fin 2) ((((cfg0.win 2).blk t).view.emb j) 0)) := by
    show V m c main_v1 (((cfg0.win 0).blk t).view.emb (ix2 (0 : Fin 2) (j 0))) = _
    refine congrArg (V m c main_v1) (funext fun a => Fin.ext ?_)
    match a with
    | ⟨0, _⟩ => show win0_0.index t (0 : Fin 2) * 2 + 1 * 0 = 0; omega
    | ⟨1, _⟩ => show win0_0.index t (1 : Fin 2) * 2048 + 1 * (j 0).val = win0_2.index t (0 : Fin 2) * 2048 + 1 * (j 0).val; omega
  have h1 : iblk m c 0 t (ix2 (1 : Fin 2) (j 0)) = V m c main_v1 (ix2 (1 : Fin 2) ((((cfg0.win 2).blk t).view.emb j) 0)) := by
    show V m c main_v1 (((cfg0.win 0).blk t).view.emb (ix2 (1 : Fin 2) (j 0))) = _
    refine congrArg (V m c main_v1) (funext fun a => Fin.ext ?_)
    match a with
    | ⟨0, _⟩ => show win0_0.index t (0 : Fin 2) * 2 + 1 * 1 = 1; omega
    | ⟨1, _⟩ => show win0_0.index t (1 : Fin 2) * 2048 + 1 * (j 0).val = win0_2.index t (0 : Fin 2) * 2048 + 1 * (j 0).val; omega
  have h2 : ∀ f : Fin 16, iblk m c 1 t (ix2 f (j 1)) = V m c main_v4 (ix2 f ((((cfg0.win 2).blk t).view.emb j) 1)) := by
    intro f
    show V m c main_v4 (((cfg0.win 1).blk t).view.emb (ix2 f (j 1))) = _
    refine congrArg (V m c main_v4) (funext fun a => Fin.ext ?_)
    match a with
    | ⟨0, _⟩ => show win0_1.index t (0 : Fin 2) * 16 + 1 * f.val = f.val; omega
    | ⟨1, _⟩ => show win0_1.index t (1 : Fin 2) * 2048 + 1 * (j 1).val = win0_2.index t (1 : Fin 2) * 2048 + 1 * (j 1).val; omega
  exact (Block.stored_apply_idx (iblk m c 0 t) (iblk m c 1 t) j).trans
    (stored_eq_regionOut (iblk m c 0 t) (iblk m c 1 t) (V m c main_v1) (V m c main_v4) (j 0) (j 1) _ _ h0 h1 h2)

/-- An index of the output array is in point t's block iff each coordinate is in the block's range on its axis. -/
theorem mem_blk (t : Fin cfg0.N) (i : S32768x2048.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v5).slice (win0_2.rect t)).set ↔ _
  rw [View.set_slice_whole, Rect.mem_set_unit]
  exact Iff.rfl

/-- Every index of the output array is in the block of the point its row falls to: row r belongs to point r / 2048. -/
theorem covered (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- THE OUTPUT ARRAY after the region: the region's function of the two staged arrays, everywhere. -/
theorem region_final (c : Dev nD) : (dats m 0 c).arrAt 2 cfg0.N = regionOut (V m c main_v1) (V m c main_v4) :=
  (dats m 0 c).arrAt_eq_of_cover 2 (regionOut (V m c main_v1) (V m c main_v4)) (fun t _ => flushed_eq m c t) (covered)

/-! ## The host operations before the region -/

/-- The three float arguments as launched, as typed arrays. -/
abbrev argCs (c : Dev nD) : S4x8192x2.Idx → EReal := m ((c.tc : Thread nD τ).loc main_arg1)
abbrev argW (c : Dev nD) : S2048x16.Idx → EReal := m ((c.tc : Thread nD τ).loc main_arg2)
abbrev argS (c : Dev nD) : S_.Idx → EReal := m ((c.tc : Thread nD τ).loc main_arg3)

/-- The array of points the region stages: the batch regrouped as [32768, 2], then transposed. -/
theorem staged_points (c : Dev nD) :
    V m c main_v1 = transpose S2x32768 [1, 0] (shapeCast S32768x2 (argCs m c) Facts₀.shapeCasts_S4x8192x2_S32768x2)
      Facts₀.transposes_S32768x2_S2x32768_1_0 := by
  show StableHlo.after hostOps0 (fun b => m (c, b)) (Proc.devRef .tc main_v1) = _
  after_results
  rfl

/-- Row r of the staged points at point number 8192·b + l is coordinate r of the point cs[b, l]. -/
theorem staged_points_apply (c : Dev nD) (r : Fin 2) (b : Fin 4) (l : Fin 8192) (p : Fin 32768) (hp : p.val = b.val * 8192 + l.val) :
    V m c main_v1 (ix2 r p) = (argCs m c) (ix3 b l r) := by
  refine (congrFun (staged_points m c) _).trans ?_
  refine (transpose_apply [1, 0] _ _ (ix2 r p) (ix2 p r) (fun a => ?_)).trans ?_
  · match a with
    | ⟨0, _⟩ => rfl
    | ⟨1, _⟩ => rfl
  · exact RowPairs.shapeCast_abc_nc_apply _ _ b l r p hp

/-- The table the region stages: the transposed weights times the scalar spread over them. -/
theorem staged_table (c : Dev nD) :
    V m c main_v4 = mulf (F := Ideal) (φ := .f32) (transpose S16x2048 [1, 0] (argW m c) Facts₀.transposes_S2048x16_S16x2048_1_0)
      (broadcastInDim S16x2048 ![] Facts₀.bcast_S_S16x2048 (argS m c)) := by
  show StableHlo.after hostOps0 (fun b => m (c, b)) (Proc.devRef .tc main_v4) = _
  after_results

/-- Entry (f, d) of the staged table is W[d, f] · s. -/
theorem staged_table_apply (c : Dev nD) (f : Fin 16) (d : Fin 2048) :
    V m c main_v4 (ix2 f d) = (argW m c) (ix2 d f) * (argS m c) ix0 := by
  refine (congrFun (staged_table m c) _).trans ?_
  show transpose S16x2048 [1, 0] (argW m c) Facts₀.transposes_S2048x16_S16x2048_1_0 (ix2 f d)
      * broadcastInDim S16x2048 ![] Facts₀.bcast_S_S16x2048 (argS m c) (ix2 f d) = _
  rw [transpose_apply [1, 0] _ _ (ix2 f d) (ix2 d f) (fun a => by
        match a with
        | ⟨0, _⟩ => rfl
        | ⟨1, _⟩ => rfl),
    Cert.LibInDimRows.scalar_spread_apply]

/-! ## The host operation after the region -/

/-- The program's result is the region's output with its rows regrouped. -/
theorem result_after_tail (c : Dev nD) :
    Pipeline.afterTail₀ cfgs (dats m) 0 (V0 m) [hostOps1] c main_v6
      = shapeCast S4x8192x2048 ((dats m 0 c).arrAt 2 cfg0.N) Facts₀.shapeCasts_S32768x2048_S4x8192x2048 := by
  unfold Pipeline.afterTail₀
  show StableHlo.after hostOps1 _ (Proc.devRef .tc main_v6) = _
  after_results
  exact congrArg (fun y : S32768x2048.Idx → EReal => shapeCast S4x8192x2048 y Facts₀.shapeCasts_S32768x2048_S4x8192x2048)
    (Pipeline.withArrays_arr spec0 launch0.win.arr_inj c (V0 m c) (fun w => (dats m 0 c).arrAt w cfg0.N) 2)

/-! ## The result -/

/-- THE KERNEL'S RESULT AT (b, l, d), with the weights scaled first. -/
theorem result_apply (c : Dev nD) (b : Fin 4) (l : Fin 8192) (d : Fin 2048) :
    Pipeline.afterTail₀ cfgs (dats m) 0 (V0 m) [hostOps1] c main_v6 (ix3 b l d)
      = ∑ f : Fin 16, feat (argCs m c (ix3 b l (0 : Fin 2))) (argCs m c (ix3 b l (1 : Fin 2))) f * (argW m c (ix2 d f) * argS m c ix0) := by
  have hb : b.val < 4 := b.isLt
  have hl : l.val < 8192 := l.isLt
  refine (congrFun (result_after_tail m c) _).trans ?_
  refine (RowPairs.shapeCast_nc_abc_apply _ _ b l d (⟨b.val * 8192 + l.val, by omega⟩ : Fin 32768) rfl).trans ?_
  rw [region_final]
  show regionOutAt (V m c main_v1) (V m c main_v4) (⟨b.val * 8192 + l.val, by omega⟩ : Fin 32768) d = _
  unfold regionOutAt
  rw [staged_points_apply m c (0 : Fin 2) b l _ rfl, staged_points_apply m c (1 : Fin 2) b l _ rfl]
  exact Finset.sum_congr rfl fun f _ => by rw [staged_table_apply]

/-- THE KERNEL'S RESULT is the stated result of the three float arguments, when their entries are real. -/
theorem result_eq (c : Dev nD) (hcs : ∀ j, ∃ r : ℝ, argCs m c j = (r : EReal)) (hW : ∀ j, ∃ r : ℝ, argW m c j = (r : EReal))
    (hs : ∃ r : ℝ, argS m c ix0 = (r : EReal)) :
    Pipeline.afterTail₀ cfgs (dats m) 0 (V0 m) [hostOps1] c main_v6 = out (argCs m c) (argW m c) (argS m c) := by
  funext i
  obtain ⟨b, l, d, rfl⟩ : ∃ (b : Fin 4) (l : Fin 8192) (d : Fin 2048), i = ix3 b l d := ⟨i 0, i 1, i 2, eq_ix3 i⟩
  refine (result_apply m c b l d).trans ?_
  exact scaled_weights_eq_outAt (argCs m c) (argW m c) (argS m c) hcs hW hs b l d

/-- THE KERNEL'S RUN: every weakly fair execution terminates with the result buffer at the stated result of the
    arguments and the arguments unchanged — given that the float arguments' entries are real. -/
theorem run (hreal : ∀ c : Dev nD, (∀ j, ∃ r : ℝ, argCs m c j = (r : EReal)) ∧ (∀ j, ∃ r : ℝ, argW m c j = (r : EReal))
      ∧ ∃ r : ℝ, argS m c ix0 = (r : EReal)) :
    θ_run defs (onTc (τ := τ) (main (F := Ideal))) ⟨m, fun _ => 0, ρ⟩ fun r => ∀ c : Dev nD,
      r.2.mem ((c.tc : Thread nD τ).loc main_v6) = out (argCs m c) (argW m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans
        (result_eq m c (hreal c).1 (hreal c).2.1 (hreal c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibLastAxisPick.lean ====
/-
  One position of the last axis, read at an index.

  From an [a, b, c] array take the slab at position k of the last axis — a slice [a, b, 1] at offsets (0, 0, k) — and
  drop the unit axis by a shape cast to [a, b]: entry (p, q) of the result is entry (p, q, k) of the array. This is how
  `x[..., k]` is spelt after lowering. Any element type.
-/
import Idealize.ShloMosaic.Lib.Pipeline.Value
import Idealize.ShloMosaic.Lib.ValueIdx

namespace Cert.LibLastAxisPick

open Idealize.ShloMosaic Idealize.ShloMosaic.ValueIdx

variable {α : Type}

/-- `x[..., k]`: the slice at offsets (0, 0, k) of extent one on the last axis, cast to [a, b], at (p, q) is x at (p, q, k). -/
theorem pick_last_apply {a b c : ℕ} (k : ℕ) (x : (⟨3, ![a, b, c]⟩ : Shape).Idx → α)
    (hs : (⟨3, ![a, b, c]⟩ : Shape).Slices ![0, 0, k] ⟨3, ![a, b, 1]⟩)
    (hc : (⟨3, ![a, b, 1]⟩ : Shape).ShapeCasts ⟨2, ![a, b]⟩) (p : Fin a) (q : Fin b) (kk : Fin c) (hk : kk.val = k) :
    shapeCast ⟨2, ![a, b]⟩ (extractStridedSlice ⟨3, ![a, b, 1]⟩ ![0, 0, k] x hs) hc (ix2 p q) = x (ix3 p q kk) := by
  refine (shapeCast_apply _ hc (ix2 p q) (ix3 p q (0 : Fin 1)) ?_).trans ?_
  · rw [Shape.rowMajor_val_three, Shape.rowMajor_val_two]
    show (p.val * b + q.val) * 1 + 0 = p.val * b + q.val
    omega
  · refine extractStridedSlice_apply _ x hs _ (ix3 p q kk) fun ax => ?_
    match ax with
    | ⟨0, _⟩ => show p.val = 0 + p.val; omega
    | ⟨1, _⟩ => show q.val = 0 + q.val; omega
    | ⟨2, _⟩ => show kk.val = k + 0; omega

end Cert.LibLastAxisPick
-- ==== Proof.ReferenceValue.lean ====
/-
  The reference's result, read at an index.

  The reference splits the points into their real parts cs[·, ·, 0] and imaginary parts cs[·, ·, 1], two [4, 8192]
  arrays, runs the recurrence on whole arrays — every operation elementwise —, gives each of the sixteen resulting
  arrays a trailing unit axis and joins them along it into [4, 8192, 16], contracts that axis with the second axis of
  the weights, and multiplies by the scalar spread over the result. Elementwise means that array f of the sixteen, read
  at (b, l), is the scalar recurrence applied to the two numbers of the point cs[b, l]. So the result at (b, l, d) is
  (∑_f feature_f(cs[b, l]) · W[d, f]) · s: the stated result, with no hypothesis on the entries.
-/
import proofs.«148933_j30365418782764_2_alg».proof.Proof.ReferenceRun
import Idealize.ShloMosaic.Lib.Pipeline.Value
import proofs.«148933_j30365418782764_2_alg».proof.Proof.Julia
import proofs.«148933_j30365418782764_2_alg».proof.Proof.LibRowDots
import proofs.«148933_j30365418782764_2_alg».proof.Proof.LibInDimLayout
import proofs.«148933_j30365418782764_2_alg».proof.Proof.LibInDimRows
import proofs.«148933_j30365418782764_2_alg».proof.Proof.LibUnitPieces
import proofs.«148933_j30365418782764_2_alg».proof.Proof.LibLastAxisPick

noncomputable section

namespace Cert.ReferenceIdeal.RefValue

open Cert.ReferenceIdeal Cert.ReferenceIdeal.Gen Cert.ReferenceIdeal.ValueP Idealize.ShloMosaic Idealize.ShloMosaic.ValueIdx Cert.Julia

variable (V0 : Valuation τ sig (Elt Ideal))

/-- The three float arguments, as typed arrays. -/
abbrev argCs : FVec Ideal S4x8192x2 .f32 := V0 (Proc.devRef .tc main_arg1)
abbrev argW : FVec Ideal S2048x16 .f32 := V0 (Proc.devRef .tc main_arg2)
abbrev argS : FVec Ideal S_ .f32 := V0 (Proc.devRef .tc main_arg3)

/-- The array of twos the imaginary part's step multiplies by. -/
abbrev twos : FVec Ideal S4x8192 .f32 := broadcastInDim S4x8192 ![] Facts₀.bcast_S_S4x8192 (constant (F := Ideal) S_ .f32 0x40000000#32)

/-- The eighth step, which the run does not name. -/
abbrev re8 : FVec Ideal S4x8192 .f32 :=
  addf (subf (mulf (res_main_v57 V0) (res_main_v57 V0)) (mulf (res_main_v61 V0) (res_main_v61 V0))) (res_main_v1 V0)
abbrev im8 : FVec Ideal S4x8192 .f32 :=
  addf (mulf (mulf twos (res_main_v57 V0)) (res_main_v61 V0)) (res_main_v3 V0)

/-- A [4, 8192] array given its trailing unit axis. -/
abbrev withUnit (x : FVec Ideal S4x8192 .f32) : S4x8192x1.Idx → EReal :=
  broadcastInDim S4x8192x1 ![0, 1] Facts₀.bcast_S4x8192_S4x8192x1_0_1 x

/-- A [4, 8192, 1] array as a piece of a concatenation. -/
abbrev asPiece (p : S4x8192x1.Idx → EReal) : (s : Shape) × (s.Idx → EReal) := ⟨S4x8192x1, p⟩

/-- The sixteen arrays the reference joins, in order. -/
abbrev pieces : List (S4x8192x1.Idx → EReal) :=
  [withUnit (res_main_v9 V0), withUnit (res_main_v13 V0), withUnit (res_main_v17 V0), withUnit (res_main_v21 V0),
   withUnit (res_main_v25 V0), withUnit (res_main_v29 V0), withUnit (res_main_v33 V0), withUnit (res_main_v37 V0),
   withUnit (res_main_v41 V0), withUnit (res_main_v45 V0), withUnit (res_main_v49 V0), withUnit (res_main_v53 V0),
   withUnit (res_main_v57 V0), withUnit (res_main_v61 V0), withUnit (re8 V0), withUnit (im8 V0)]

/-- The arrays as the pieces of the concatenation. -/
abbrev joined : List ((s : Shape) × (s.Idx → EReal)) := (pieces V0).map asPiece

/-- The join of the sixteen arrays. -/
abbrev joinedArr : FVec Ideal S4x8192x16 .f32 :=
  concatenate S4x8192x16 2 (joined V0) Facts₀.concatenates_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x16_d2

/-- The run's result term, with the list of joined arrays named. -/
abbrev resultTerm : S4x8192x2048.Idx → EReal :=
  mulf (F := Ideal) (φ := .f32) (Host.dotGeneral (F := Ideal) (φ₁ := .f32) (φ₂ := .f32) dot_S4x8192x16_S2048x16_S4x8192x2048_2_1_01_0_n_n none
      (joinedArr V0)
      (argW V0))
    (broadcastInDim S4x8192x2048 ![] Facts₀.bcast_S_S4x8192x2048 (argS V0))

/-- The trailing unit axis read away. -/
theorem withUnit_apply (x : FVec Ideal S4x8192 .f32) (b : Fin 4) (l : Fin 8192) :
    withUnit x (ix3 b l (0 : Fin 1)) = x (ix2 b l) :=
  Cert.LibInDimLayout.inDim_ab_ab1_apply x _ b l 0

/-- THE ARRAYS AT A POINT: read at (b, l), the sixteen arrays are the sixteen features of the point cs[b, l] — step
    by step, each step from the one before. -/
theorem pieces_at (b : Fin 4) (l : Fin 8192) :
    (pieces V0).map (fun p => p (ix3 b l (0 : Fin 1)))
      = feats (argCs V0 (ix3 b l (0 : Fin 2))) (argCs V0 (ix3 b l (1 : Fin 2))) := by
  have c1 : res_main_v1 V0 (ix2 b l) = argCs V0 (ix3 b l (0 : Fin 2)) :=
    Cert.LibLastAxisPick.pick_last_apply 0 (argCs V0) _ _ b l (0 : Fin 2) rfl
  have c3 : res_main_v3 V0 (ix2 b l) = argCs V0 (ix3 b l (1 : Fin 2)) :=
    Cert.LibLastAxisPick.pick_last_apply 1 (argCs V0) _ _ b l (1 : Fin 2) rfl
  have z4 : res_main_v4 V0 (ix2 b l) = (orbit (argCs V0 (ix3 b l (0 : Fin 2))) (argCs V0 (ix3 b l (1 : Fin 2))) 0).1 :=
    Cert.LibInDimRows.scalar_spread_apply _ _ _
  have z5 : res_main_v5 V0 (ix2 b l) = (orbit (argCs V0 (ix3 b l (0 : Fin 2))) (argCs V0 (ix3 b l (1 : Fin 2))) 0).2 :=
    Cert.LibInDimRows.scalar_spread_apply _ _ _
  have t2 : twos (ix2 b l) = twoW := Cert.LibInDimRows.scalar_spread_apply _ _ _
  have r1 : res_main_v9 V0 (ix2 b l) = _ := re_step_apply (res_main_v4 V0) (res_main_v5 V0) (res_main_v1 V0) _ 0 _ _ z4 z5 c1
  have i1 : res_main_v13 V0 (ix2 b l) = _ := im_step_apply twos (res_main_v4 V0) (res_main_v5 V0) (res_main_v3 V0) _ 0 _ _ t2 z4 z5 c3
  have r2 : res_main_v17 V0 (ix2 b l) = _ := re_step_apply (res_main_v9 V0) (res_main_v13 V0) (res_main_v1 V0) _ 1 _ _ r1 i1 c1
  have i2 : res_main_v21 V0 (ix2 b l) = _ := im_step_apply twos (res_main_v9 V0) (res_main_v13 V0) (res_main_v3 V0) _ 1 _ _ t2 r1 i1 c3
  have r3 : res_main_v25 V0 (ix2 b l) = _ := re_step_apply (res_main_v17 V0) (res_main_v21 V0) (res_main_v1 V0) _ 2 _ _ r2 i2 c1
  have i3 : res_main_v29 V0 (ix2 b l) = _ := im_step_apply twos (res_main_v17 V0) (res_main_v21 V0) (res_main_v3 V0) _ 2 _ _ t2 r2 i2 c3
  have r4 : res_main_v33 V0 (ix2 b l) = _ := re_step_apply (res_main_v25 V0) (res_main_v29 V0) (res_main_v1 V0) _ 3 _ _ r3 i3 c1
  have i4 : res_main_v37 V0 (ix2 b l) = _ := im_step_apply twos (res_main_v25 V0) (res_main_v29 V0) (res_main_v3 V0) _ 3 _ _ t2 r3 i3 c3
  have r5 : res_main_v41 V0 (ix2 b l) = _ := re_step_apply (res_main_v33 V0) (res_main_v37 V0) (res_main_v1 V0) _ 4 _ _ r4 i4 c1
  have i5 : res_main_v45 V0 (ix2 b l) = _ := im_step_apply twos (res_main_v33 V0) (res_main_v37 V0) (res_main_v3 V0) _ 4 _ _ t2 r4 i4 c3
  have r6 : res_main_v49 V0 (ix2 b l) = _ := re_step_apply (res_main_v41 V0) (res_main_v45 V0) (res_main_v1 V0) _ 5 _ _ r5 i5 c1
  have i6 : res_main_v53 V0 (ix2 b l) = _ := im_step_apply twos (res_main_v41 V0) (res_main_v45 V0) (res_main_v3 V0) _ 5 _ _ t2 r5 i5 c3
  have r7 : res_main_v57 V0 (ix2 b l) = _ := re_step_apply (res_main_v49 V0) (res_main_v53 V0) (res_main_v1 V0) _ 6 _ _ r6 i6 c1
  have i7 : res_main_v61 V0 (ix2 b l) = _ := im_step_apply twos (res_main_v49 V0) (res_main_v53 V0) (res_main_v3 V0) _ 6 _ _ t2 r6 i6 c3
  have r8 : re8 V0 (ix2 b l) = _ := re_step_apply (res_main_v57 V0) (res_main_v61 V0) (res_main_v1 V0) _ 7 _ _ r7 i7 c1
  have i8 : im8 V0 (ix2 b l) = _ := im_step_apply twos (res_main_v57 V0) (res_main_v61 V0) (res_main_v3 V0) _ 7 _ _ t2 r7 i7 c3
  show [withUnit (res_main_v9 V0) (ix3 b l (0 : Fin 1)), withUnit (res_main_v13 V0) (ix3 b l (0 : Fin 1)),
    withUnit (res_main_v17 V0) (ix3 b l (0 : Fin 1)), withUnit (res_main_v21 V0) (ix3 b l (0 : Fin 1)),
    withUnit (res_main_v25 V0) (ix3 b l (0 : Fin 1)), withUnit (res_main_v29 V0) (ix3 b l (0 : Fin 1)),
    withUnit (res_main_v33 V0) (ix3 b l (0 : Fin 1)), withUnit (res_main_v37 V0) (ix3 b l (0 : Fin 1)),
    withUnit (res_main_v41 V0) (ix3 b l (0 : Fin 1)), withUnit (res_main_v45 V0) (ix3 b l (0 : Fin 1)),
    withUnit (res_main_v49 V0) (ix3 b l (0 : Fin 1)), withUnit (res_main_v53 V0) (ix3 b l (0 : Fin 1)),
    withUnit (res_main_v57 V0) (ix3 b l (0 : Fin 1)), withUnit (res_main_v61 V0) (ix3 b l (0 : Fin 1)),
    withUnit (re8 V0) (ix3 b l (0 : Fin 1)), withUnit (im8 V0) (ix3 b l (0 : Fin 1))] = _
  simp only [withUnit_apply]
  rw [r1, i1, r2, i2, r3, i3, r4, i4, r5, i5, r6, i6, r7, i7, r8, i8]
  rfl

/-- THE JOIN AT (b, l, f): array `f` of the sixteen at (b, l) is feature `f` of the point cs[b, l]. -/
theorem join_apply (b : Fin 4) (l : Fin 8192) (f : Fin 16) :
    joinedArr V0 (ix3 b l f)
      = feat (argCs V0 (ix3 b l (0 : Fin 2))) (argCs V0 (ix3 b l (1 : Fin 2))) f := by
  refine eq_feat_of_getElem? f ?_
  refine (Cert.LibUnitPieces.concatenate_unit_pieces_getElem? (α := EReal) (s₁ := S4x8192x1) (t := S4x8192x16) (2 : Fin 3) (pieces V0) Facts₀.concatenates_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x1_S4x8192x16_d2 rfl rfl
    (ix3 b l f) f.val f.isLt rfl (ix3 b l (0 : Fin 1)) (fun a ha => ?_)).trans ?_
  · match a, ha with
    | ⟨0, _⟩, _ => rfl
    | ⟨1, _⟩, _ => rfl
    | ⟨2, _⟩, ha => exact absurd rfl ha
  · rw [pieces_at V0 b l]

/-- THE REFERENCE'S RESULT is the stated result of the three float arguments. -/
theorem result_eq :
    resultTerm V0 = out (argCs V0) (argW V0) (argS V0) := by
  funext i
  obtain ⟨b, l, d, rfl⟩ : ∃ (b : Fin 4) (l : Fin 8192) (d : Fin 2048), i = ix3 b l d := ⟨i 0, i 1, i 2, eq_ix3 i⟩
  show Host.dotGeneral (F := Ideal) (φ₁ := .f32) (φ₂ := .f32) dot_S4x8192x16_S2048x16_S4x8192x2048_2_1_01_0_n_n none
      (joinedArr V0)
      (argW V0) (ix3 b l d)
    * broadcastInDim S4x8192x2048 ![] Facts₀.bcast_S_S4x8192x2048 (argS V0) (ix3 b l d)
    = outAt (argCs V0) (argW V0) (argS V0) b l d
  rw [Cert.LibRowDots.dot_shared Facts₀.dot_S4x8192x16_S2048x16_S4x8192x2048_2_1_01_0_n_n_wf dot_S4x8192x16_S2048x16_S4x8192x2048_2_1_01_0_n_n rfl none _ _ b l d, Cert.LibInDimRows.scalar_spread_apply]
  unfold outAt
  refine congrArg (· * _) (Finset.sum_congr rfl fun f _ => ?_)
  rw [join_apply]

end Cert.ReferenceIdeal.RefValue

end
-- ==== Proof.lean ====
/-
  A kernel that embeds tokens by Julia features, against its reference: the certificate.

  Both programs take a batch of points cs[b, l, ·] of the plane, a weight matrix W[d, f] and a scalar s, follow the
  iteration z ← z² + c from 0 for eight steps at every point, and project the sixteen numbers so obtained by W, scaled
  by s. The reference scales the projection, (∑_f feature_f · W[d, f]) · s; the kernel scales the weights before its
  sixteen grid points run, ∑_f feature_f · (W[d, f] · s). On the extended reals a factor does not come out of a sum in
  general, but under the precondition every input is a real number, so are the features — the recurrence only
  multiplies, subtracts and adds — and the two agree (Proof/Julia.lean).
  The kernel's side: one grid point's stored block at an index (Proof/KernelBlock.lean), the blocks tiling the output
  and the host operations around the region (Proof/KernelArray.lean). The reference's side: its run
  (Proof/ReferenceRun.lean) and the run's term at an index (Proof/ReferenceValue.lean). The precondition read back:
  Proof/Finite.lean. The three frames are the generated ones, the reference's being its run with the result dropped.
-/
import proofs.«148933_j30365418782764_2_alg».proof.Defs
import proofs.«148933_j30365418782764_2_alg».proof.Proof.Gen.Kernel
import proofs.«148933_j30365418782764_2_alg».proof.Proof.Gen.Kernel.Skeleton
import proofs.«148933_j30365418782764_2_alg».proof.Proof.Gen.Kernel.Launch
import proofs.«148933_j30365418782764_2_alg».proof.Proof.Gen.Kernel.Points
import proofs.«148933_j30365418782764_2_alg».proof.Proof.Gen.Kernel.Frame
import proofs.«148933_j30365418782764_2_alg».proof.Proof.Gen.KernelIdeal
import proofs.«148933_j30365418782764_2_alg».proof.Proof.Gen.KernelIdeal.Skeleton
import proofs.«148933_j30365418782764_2_alg».proof.Proof.Gen.KernelIdeal.Launch
import proofs.«148933_j30365418782764_2_alg».proof.Proof.Gen.KernelIdeal.Points
import proofs.«148933_j30365418782764_2_alg».proof.Proof.Gen.KernelIdeal.Frame
import proofs.«148933_j30365418782764_2_alg».proof.Proof.Gen.ReferenceIdeal
import proofs.«148933_j30365418782764_2_alg».proof.Proof.Gen.Pre_finite_inputs
import proofs.«148933_j30365418782764_2_alg».proof.Proof.Finite
import proofs.«148933_j30365418782764_2_alg».proof.Proof.KernelArray
import proofs.«148933_j30365418782764_2_alg».proof.Proof.ReferenceRun
import proofs.«148933_j30365418782764_2_alg».proof.Proof.ReferenceValue
import Idealize.ShloMosaic.Adequacy
import Idealize.ShloMosaic.Init

noncomputable section

namespace Cert.Proof

open Idealize.ShloMosaic Idealize.ShloMosaic.StableHlo Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments, both programs end with the result buffer at the one stated function of
    the three float arguments: the kernel because the inputs are real numbers, the reference unconditionally. -/
theorem algebraic : Cert.algebraic_KernelIdeal_ReferenceIdeal := by
  intro m ρ m' ρ' hpre hagree
  refine ⟨fun c => Cert.Julia.out (Cert.KernelIdeal.Whole.argCs m c) (Cert.KernelIdeal.Whole.argW m c) (Cert.KernelIdeal.Whole.argS m c),
    Cert.KernelIdeal.Whole.run m ρ (fun c => Cert.Finite.real_entries _ _ _ _ (hpre c)), ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.result_eq (launchContents m' c)).trans ?_
  show Cert.Julia.out (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [(hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
